-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x4096x512 .f32) (main_arg1 : FVec F S512x512 .f32) (main_arg2 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x4096x512 : Shape := ⟨3, ![16, 4096, 512]⟩
abbrev S512x512 : Shape := ⟨2, ![512, 512]⟩
abbrev S512 : Shape := ⟨1, ![512]⟩
abbrev S65536x512 : Shape := ⟨2, ![65536, 512]⟩
abbrev S_ : Shape := ⟨0, ![]⟩
abbrev S1x512 : Shape := ⟨2, ![1, 512]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩

abbrev nBuf : Space → Nat
  | .hbm => 28
  | .vmem => 7
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S512x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S1x512, .f32⟩
  | .hbm, ⟨25, _⟩ => ⟨S1x1, .f32⟩
  | .hbm, ⟨26, _⟩ => ⟨S65536x512, .f32⟩
  | .hbm, ⟨27, _⟩ => ⟨S16x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S1x1, .f32⟩
  | .local _ .vmem, ⟨5, _⟩ => ⟨S2048x512, .f32⟩
  | .local _ .vmem, ⟨6, _⟩ => ⟨S2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x512_S65536x512 : S16x4096x512.ShapeCasts S65536x512
  reducesTo_S512x512_S_d0_1 : S512x512.ReducesTo [0, 1] S_
  h_S_ : 0 < S_.numel
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S512_S1x512 : S512.ShapeCasts S1x512
  shapeCasts_S_S1x1 : S_.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S65536x512_S16x4096x512 : S65536x512.ShapeCasts S16x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S65536x512.size a
  hwx0_4 : ∀ i : grid0.Coords, EltTy.bits .f32 = 32 ∨ (Rect.block (s := S65536x512) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩
abbrev S16x4096 : Shape := ⟨2, ![16, 4096]⟩
abbrev S16x4096x1 : Shape := ⟨3, ![16, 4096, 1]⟩
abbrev S1x1x512 : Shape := ⟨3, ![1, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S16x4096x512, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x512, .f32⟩
  | .hbm, ⟨15, _⟩ => ⟨S16x4096x512, .f32⟩
  | .hbm, ⟨16, _⟩ => ⟨S1x1x512, .f32⟩
  | .hbm, ⟨17, _⟩ => ⟨S16x4096x512, .f32⟩
  | .hbm, ⟨18, _⟩ => ⟨S16x4096x512, .f32⟩
  | .hbm, ⟨19, _⟩ => ⟨S16x4096x512, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x512, .f32⟩
  | .hbm, ⟨30, _⟩ => ⟨S16x4096x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x4096x512, .f32⟩
  | .hbm, ⟨35, _⟩ => ⟨S16x4096x512, .f32⟩
  | .hbm, ⟨36, _⟩ => ⟨S_, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S16x4096x512, .f32⟩
  | .hbm, ⟨42, _⟩ => ⟨S512x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_cst_11 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  reducesTo_S16x4096x512_S16x4096_d2 : S16x4096x512.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x512_0_1_2 : S16x4096x1.BroadcastsInDim S16x4096x512 (![0, 1, 2] : Fin 3 → Fin S16x4096x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  reducesTo_S512x512_S_d0_1 : S512x512.ReducesTo [0, 1] S_
  bcast_S_S512x512 : S_.BroadcastsInDim S512x512 (![] : Fin 0 → Fin S512x512.rank)
  dot_S16x4096x512_S512x512_S16x4096x512_2_1_01_0_n_n_wf : DotDims.WF S16x4096x512 S512x512 S16x4096x512 [2] [1] [0, 1] [0] [] []

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.LibAbsmaxQuant.lean ====
/-
  Per-row absmax quantisation after an inverse-rms scaling, written two ways, and the law that joins them on the
  extended reals.

  A row `x` is scaled by `r = 1/sqrt(mean(x²) + ε)` and a gain `g`; the scaled row is quantised to codes
  `clip(u_d / s)` with the per-row step `s = max(max_d |u_d|, ε) / q`, and the codes meet a weight row `w` carrying its
  own scale `c`.

  * the factored arrangement takes the absmax of `t_d = x_d·g_d` BEFORE the scaling, `s = max(r · max_d |t_d|, ε) / q`,
    multiplies `t_d` by the single quotient `r / s`, sums the bare codes against the bare weights and applies
    `s · c` once, after the sum;
  * the direct arrangement takes the absmax of `u_d = (x_d·r)·g_d`, divides each `u_d` by `s`, and sums
    `(code_d · s) · (w_d · c)`.

  The two agree because `r > 0` commutes with `|·|` and with `max` (also from the bottom element, since `r · ⊥ = ⊥`),
  because a division by a nonzero `s` is a product with `s⁻¹`, and because a finite nonnegative factor `s · c`
  distributes over a sum of extended reals. Finiteness of the entries is what makes `r` a positive real and `s` finite.
  Nothing here depends on a program.
-/
import Idealize.ShloMosaic.PureOps.Ideal
import Mathlib.Data.EReal.Inv
import Mathlib.Algebra.BigOperators.Group.Finset.Basic

noncomputable section

namespace AbsmaxQuant

open Idealize.ShloMosaic

variable {ι : Type} [Fintype ι]

/-! ## Sums of extended reals -/

/-- The coercion of a finite real sum is the sum of the coercions. -/
theorem coe_sum {κ : Type} (s : Finset κ) (f : κ → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- A finite nonnegative factor distributes over a finite sum of extended reals. -/
theorem sum_mul_of_nonneg_of_ne_top {κ : Type} (s : Finset κ) (f : κ → EReal) {c : EReal} (h0 : 0 ≤ c) (ht : c ≠ ⊤) :
    (∑ d ∈ s, f d) * c = ∑ d ∈ s, f d * c := by
  classical
  induction s using Finset.induction_on with
  | empty => simp
  | insert a s ha ih =>
    rw [Finset.sum_insert ha, Finset.sum_insert ha, EReal.right_distrib_of_nonneg_of_ne_top h0 ht, ih]

/-! ## The largest magnitude of a row -/

/-- The largest magnitude of a row: `max` folded from the bottom element over `|t_d| = max(t_d, -t_d)`. -/
def amax (t : ι → EReal) : EReal := (Finset.univ : Finset ι).fold max ⊥ (fun d => max (t d) (-(t d)))

/-- A positive factor passes through the largest magnitude. -/
theorem amax_mul_left {r : EReal} (hr : 0 < r) (t : ι → EReal) : amax (fun d => r * t d) = r * amax t := by
  unfold amax
  have hm : ∀ a b : EReal, r * max a b = max (r * a) (r * b) := fun a b =>
    Monotone.map_max (f := fun v => r * v) (fun _ _ h => mul_le_mul_of_nonneg_left h hr.le)
  have hpt : (fun d => max (r * t d) (-(r * t d))) = fun d => r * max (t d) (-(t d)) :=
    funext fun d => by rw [hm, mul_neg]
  rw [hpt]
  have h := Finset.fold_hom (s := (Finset.univ : Finset ι)) (op := max) (op' := max) (b := (⊥ : EReal))
    (f := fun d => max (t d) (-(t d))) (m := fun a => r * a) hm
  simp only [EReal.mul_bot_of_pos hr] at h
  exact h

/-- The largest magnitude of a row of reals is not `⊤`. -/
theorem amax_coe_lt_top (t : ι → ℝ) : amax (fun d => (t d : EReal)) < ⊤ := by
  unfold amax
  rw [Finset.fold_max_lt]
  exact ⟨bot_lt_top, fun d _ => max_lt (EReal.coe_lt_top _) (by rw [← EReal.coe_neg]; exact EReal.coe_lt_top _)⟩

/-! ## The inverse root-mean-square of a row of reals is a positive real -/

/-- `rsqrt (Σ x_d² / n + ε)` of a row of reals, with `n, ε > 0`, is a positive real. -/
theorem invRms_pos (x : ι → ℝ) {n e : ℝ} (hn : 0 < n) (he : 0 < e) :
    ∃ r : ℝ, 0 < r ∧ Ideal.rsqrt (Ideal.div (∑ d, (x d : EReal) * (x d : EReal)) (n : EReal) + (e : EReal)) = (r : EReal) := by
  have hs : (∑ d, (x d : EReal) * (x d : EReal)) = ((∑ d, x d * x d : ℝ) : EReal) := by
    rw [coe_sum]; exact Finset.sum_congr rfl fun d _ => (EReal.coe_mul _ _).symm
  have hS : 0 ≤ ∑ d, x d * x d := Finset.sum_nonneg fun d _ => mul_self_nonneg _
  rw [hs, Ideal.div_coe hn.ne', ← EReal.coe_mul, ← EReal.coe_add]
  have hp : 0 < (∑ d, x d * x d) * (1 / n) + e := by positivity
  rw [Ideal.rsqrt_coe, if_neg (not_lt.2 hp.le), if_neg hp.ne']
  exact ⟨_, inv_pos.2 (Real.sqrt_pos.2 hp), rfl⟩

/-! ## A scale `max (Σ|w| / n, ε)` of reals is a nonnegative real -/

theorem scale_nonneg_ne_top {κ : Type} [Fintype κ] (w : κ → ℝ) {n e : ℝ} (hn : n ≠ 0) (he : 0 < e) :
    0 ≤ max (Ideal.div (∑ i, max (w i : EReal) (-(w i : EReal))) (n : EReal)) (e : EReal)
      ∧ max (Ideal.div (∑ i, max (w i : EReal) (-(w i : EReal))) (n : EReal)) (e : EReal) ≠ ⊤ := by
  have hs : (∑ i, max (w i : EReal) (-(w i : EReal))) = ((∑ i, max (w i) (-(w i)) : ℝ) : EReal) := by
    rw [coe_sum]; exact Finset.sum_congr rfl fun i _ => by
      rw [← EReal.coe_neg]; exact (Monotone.map_max EReal.coe_strictMono.monotone).symm
  rw [hs, Ideal.div_coe hn, ← EReal.coe_mul, ← Monotone.map_max EReal.coe_strictMono.monotone]
  exact ⟨EReal.coe_nonneg.2 (le_trans he.le (le_max_right _ _)), EReal.coe_ne_top _⟩

/-! ## The two arrangements of one quantised row against one weight row -/

/-- The factored arrangement: the absmax taken before the scaling, one quotient `r / s`, the scales applied after the sum. -/
def rowFactored (clip : EReal → EReal) (e q r c : EReal) (x g w : ι → EReal) : EReal :=
  (∑ d, clip ((x d * g d) * Ideal.div r (Ideal.div (max (r * amax fun d => x d * g d) e) q)) * w d)
    * (Ideal.div (max (r * amax fun d => x d * g d) e) q * c)

/-- The direct arrangement: the absmax of the scaled row, each entry divided by the step, every product carrying both scales. -/
def rowDirect (clip : EReal → EReal) (e q r c : EReal) (x g w : ι → EReal) : EReal :=
  ∑ d, (clip (Ideal.div ((x d * r) * g d) (Ideal.div (max (amax fun d => (x d * r) * g d) e) q))
      * Ideal.div (max (amax fun d => (x d * r) * g d) e) q) * (w d * c)

/-- The step `max (r · a, ε) / q` with `r` a positive real, `a < ⊤`, `ε, q > 0` reals is a positive real. -/
theorem step_pos {r a : EReal} (hr : 0 < r) (hrt : r ≠ ⊤) (ha : a < ⊤) {e q : ℝ} (he : 0 < e) (hq : 0 < q) :
    ∃ s : ℝ, 0 < s ∧ Ideal.div (max (r * a) (e : EReal)) (q : EReal) = (s : EReal) := by
  have hra : r * a < ⊤ := by
    lift r to ℝ using ⟨hrt, hr.ne_bot⟩
    induction a using EReal.rec with
    | bot => rw [EReal.mul_bot_of_pos hr]; exact bot_lt_top
    | coe a => rw [← EReal.coe_mul]; exact EReal.coe_lt_top _
    | top => exact absurd ha (lt_irrefl _)
  have hm : max (r * a) (e : EReal) < ⊤ := max_lt hra (EReal.coe_lt_top _)
  have hm0 : (0 : EReal) < max (r * a) (e : EReal) := lt_of_lt_of_le (EReal.coe_pos.2 he) (le_max_right _ _)
  obtain ⟨y, hy⟩ : ∃ y : ℝ, max (r * a) (e : EReal) = (y : EReal) := by
    lift max (r * a) (e : EReal) to ℝ using ⟨hm.ne, hm0.ne_bot⟩ with y hy
    exact ⟨y, rfl⟩
  rw [hy] at hm0 ⊢
  rw [Ideal.div_coe hq.ne', ← EReal.coe_mul]
  exact ⟨_, mul_pos (EReal.coe_pos.1 hm0) (by positivity), rfl⟩

/-- THE LAW: over a row of reals `x` with real gains `g`, a positive real `r`, positive real `ε` and `q`, and a finite
    nonnegative weight scale `c`, the factored arrangement and the direct one are the same extended real — for any clipping
    function and any weights. -/
theorem rowFactored_eq_rowDirect (clip : EReal → EReal) {e q : ℝ} (he : 0 < e) (hq : 0 < q) {r c : EReal}
    (hr : 0 < r) (hrt : r ≠ ⊤) (hc0 : 0 ≤ c) (hct : c ≠ ⊤) (x g : ι → ℝ) (w : ι → EReal) :
    rowFactored clip (e : EReal) (q : EReal) r c (fun d => (x d : EReal)) (fun d => (g d : EReal)) w
      = rowDirect clip (e : EReal) (q : EReal) r c (fun d => (x d : EReal)) (fun d => (g d : EReal)) w := by
  unfold rowFactored rowDirect
  dsimp only
  -- the scaled row is `r` times the unscaled one, so its largest magnitude is `r` times the unscaled row's
  have hu : (fun d => ((x d : EReal) * r) * (g d : EReal)) = fun d => r * ((x d : EReal) * (g d : EReal)) :=
    funext fun d => by rw [mul_comm (x d : EReal) r, mul_assoc]
  rw [hu, amax_mul_left hr]
  have hat : amax (fun d => (x d : EReal) * (g d : EReal)) < ⊤ := by
    have := amax_coe_lt_top (fun d => x d * g d)
    simpa only [EReal.coe_mul] using this
  obtain ⟨s, hs0, hs⟩ := step_pos hr hrt hat he hq
  rw [hs]
  have hsne : (s : EReal) ≠ 0 := (EReal.coe_pos.2 hs0).ne'
  -- the finite nonnegative factor `s · c` goes inside the sum
  have hsc0 : (0 : EReal) ≤ (s : EReal) * c := mul_nonneg (EReal.coe_nonneg.2 hs0.le) hc0
  have hsct : (s : EReal) * c ≠ ⊤ := by
    lift c to ℝ using ⟨hct, (lt_of_lt_of_le EReal.bot_lt_zero hc0).ne'⟩
    rw [← EReal.coe_mul]; exact EReal.coe_ne_top _
  rw [sum_mul_of_nonneg_of_ne_top _ _ hsc0 hsct]
  refine Finset.sum_congr rfl fun d _ => ?_
  -- a division by the nonzero step is a product with its inverse
  have hd : Ideal.div (((x d : EReal) * r) * (g d : EReal)) (s : EReal)
      = ((x d : EReal) * (g d : EReal)) * Ideal.div r (s : EReal) := by
    unfold Ideal.div
    rw [if_neg hsne, if_neg hsne, mul_right_comm (x d : EReal) r, mul_assoc]
  rw [hd, mul_mul_mul_comm]

end AbsmaxQuant

end
-- ==== Proof.Consts.lean ====
/-
  The float constants the two programs spell, as the extended reals their bit patterns denote: 512 (the row length the
  mean divides by), 127 (the quantisation range), 262144 = 512² (the number of weight entries), the small positive ε that
  floors every scale, the pattern of -∞ that starts a running maximum, and the pattern of +∞ the precondition compares with.
-/
import Idealize.ShloMosaic.PureOps.Ideal

noncomputable section

namespace Cert.Consts

open Idealize.ShloMosaic

/-- `512.0` denotes the real 512. -/
theorem ofBits_512 : Ideal.ofBits .f32 0x44000000#32 = ((512 : ℝ) : EReal) := by
  simp [Ideal.ofBits, Ideal.ieee, -EReal.coe_mul]; norm_num

/-- `127.0` denotes the real 127. -/
theorem ofBits_127 : Ideal.ofBits .f32 0x42FE0000#32 = ((127 : ℝ) : EReal) := by
  simp [Ideal.ofBits, Ideal.ieee, -EReal.coe_mul]; norm_num

/-- `262144.0` denotes the real 262144. -/
theorem ofBits_262144 : Ideal.ofBits .f32 0x48800000#32 = ((262144 : ℝ) : EReal) := by
  simp [Ideal.ofBits, Ideal.ieee, -EReal.coe_mul]; norm_num

/-- The float nearest to 1e-8 denotes a positive real. -/
theorem ofBits_eps : ∃ e : ℝ, 0 < e ∧ Ideal.ofBits .f32 0x322BCC77#32 = (e : EReal) := by
  refine ⟨(2 ^ 23 + 2870391 : ℕ) * (2 : ℝ) ^ ((100 : ℤ) - 127 - 23), by positivity, ?_⟩
  simp [Ideal.ofBits, Ideal.ieee, -EReal.coe_mul]

/-- The pattern of +∞ denotes the top element. -/
theorem ofBits_pos_inf : Ideal.ofBits .f32 0x7F800000#32 = ⊤ := by
  simp [Ideal.ofBits, Ideal.ieee]

/-- The pattern of -∞ denotes the bottom element. -/
theorem ofBits_neg_inf : Ideal.ofBits .f32 0xFF800000#32 = ⊥ := by
  simp [Ideal.ofBits, Ideal.ieee]

end Cert.Consts

end
-- ==== Proof.Spec.lean ====
/-
  What both programs compute, as one function of the three argument arrays, entry by entry.

  For a token (b, s) with row `x = X[b, s, :]`: the inverse root-mean-square `r = rsqrt (Σ_d x_d² / 512 + ε)`, the
  normalised row `x_d · r · nw_d`, its per-row int8 step (absmax floored by ε, over 127), the codes
  `round (clip (· / step, -128, 127))`; for the weights the per-tensor scale `c = max (Σ |W| / 512², ε)` and the ternary
  codes `round (clip (W / c, -1, 1))`; the entry (b, s, o) is the product of the dequantised row with the dequantised
  weight row `o`. `G` states it in the factored arrangement (codes against codes, both scales applied once after
  the sum), `Gdirect` in the direct one (every product carrying both scales); on finite inputs they are one function.
-/
import Idealize.ShloMosaic.Lib.ValueIdx
import proofs.«100277_j55027120996833_2_alg».proof.Proof.LibAbsmaxQuant
import proofs.«100277_j55027120996833_2_alg».proof.Proof.Consts

noncomputable section

namespace Cert.Spec

open Idealize.ShloMosaic Idealize.ShloMosaic.ValueIdx AbsmaxQuant

/-- Round to nearest, ties to even, the infinities fixed. -/
def rnd (v : EReal) : EReal := Ideal.liftRound Ideal.roundHalfEven v

/-- An activation code: clipped to [-128, 127], then rounded. -/
def codeAct (v : EReal) : EReal :=
  rnd (min (Ideal.ofBits .f32 0x42FE0000#32) (max (Ideal.ofBits .f32 0xC3000000#32) v))

/-- A weight code: clipped to [-1, 1], then rounded. -/
def codeW (v : EReal) : EReal :=
  rnd (min (Ideal.ofBits .f32 0x3F800000#32) (max (Ideal.ofBits .f32 0xBF800000#32) v))

/-- The per-tensor weight scale: the mean magnitude of the 512 × 512 weights, floored by ε. -/
def wscale (W : (⟨2, ![512, 512]⟩ : Shape).Idx → EReal) : EReal :=
  max (Ideal.div (∑ j : (⟨2, ![512, 512]⟩ : Shape).Idx, max (W j) (-(W j))) (Ideal.ofBits .f32 0x48800000#32))
    (Ideal.ofBits .f32 0x322BCC77#32)

/-- The ternary code of weight (o, k). -/
def wq (W : (⟨2, ![512, 512]⟩ : Shape).Idx → EReal) (o k : Fin 512) : EReal :=
  codeW (Ideal.div (W (ix2 o k)) (wscale W))

/-- The inverse root-mean-square of a row of 512 entries. -/
def invRms (xr : Fin 512 → EReal) : EReal :=
  Ideal.rsqrt (Ideal.div (∑ d, xr d * xr d) (Ideal.ofBits .f32 0x44000000#32) + Ideal.ofBits .f32 0x322BCC77#32)

/-- The result in the factored arrangement. -/
def G (X : (⟨3, ![16, 4096, 512]⟩ : Shape).Idx → EReal) (W : (⟨2, ![512, 512]⟩ : Shape).Idx → EReal)
    (NW : (⟨1, ![512]⟩ : Shape).Idx → EReal) : (⟨3, ![16, 4096, 512]⟩ : Shape).Idx → EReal := fun i =>
  rowFactored codeAct (Ideal.ofBits .f32 0x322BCC77#32) (Ideal.ofBits .f32 0x42FE0000#32)
    (invRms fun d => X (ix3 (i 0) (i 1) d)) (wscale W)
    (fun d => X (ix3 (i 0) (i 1) d)) (fun d => NW (ix1 d)) (fun d => wq W (i 2) d)

/-- The result in the direct arrangement. -/
def Gdirect (X : (⟨3, ![16, 4096, 512]⟩ : Shape).Idx → EReal) (W : (⟨2, ![512, 512]⟩ : Shape).Idx → EReal)
    (NW : (⟨1, ![512]⟩ : Shape).Idx → EReal) : (⟨3, ![16, 4096, 512]⟩ : Shape).Idx → EReal := fun i =>
  rowDirect codeAct (Ideal.ofBits .f32 0x322BCC77#32) (Ideal.ofBits .f32 0x42FE0000#32)
    (invRms fun d => X (ix3 (i 0) (i 1) d)) (wscale W)
    (fun d => X (ix3 (i 0) (i 1) d)) (fun d => NW (ix1 d)) (fun d => wq W (i 2) d)

/-- On arrays of reals the two arrangements are one function: each row's inverse root-mean-square is a positive real
    and the weight scale a finite nonnegative one, which is what the row law asks. -/
theorem G_eq_Gdirect (x : (⟨3, ![16, 4096, 512]⟩ : Shape).Idx → ℝ) (w : (⟨2, ![512, 512]⟩ : Shape).Idx → ℝ)
    (g : (⟨1, ![512]⟩ : Shape).Idx → ℝ) :
    G (fun i => (x i : EReal)) (fun j => (w j : EReal)) (fun k => (g k : EReal))
      = Gdirect (fun i => (x i : EReal)) (fun j => (w j : EReal)) (fun k => (g k : EReal)) := by
  funext i
  unfold G Gdirect
  obtain ⟨e, he, hee⟩ := Cert.Consts.ofBits_eps
  obtain ⟨r, hr0, hr⟩ := invRms_pos (fun d => x (ix3 (i 0) (i 1) d)) (by norm_num : (0 : ℝ) < 512) he
  have hsc := scale_nonneg_ne_top w (by norm_num : (262144 : ℝ) ≠ 0) he
  have hinv : invRms (fun d => ((x (ix3 (i 0) (i 1) d) : ℝ) : EReal)) = (r : EReal) := by
    unfold invRms; rw [Cert.Consts.ofBits_512, hee]; exact hr
  have hws : wscale (fun j => (w j : EReal))
      = max (Ideal.div (∑ j, max (w j : EReal) (-(w j : EReal))) ((262144 : ℝ) : EReal)) (e : EReal) := by
    unfold wscale; rw [Cert.Consts.ofBits_262144, hee]
  rw [hinv, hee, Cert.Consts.ofBits_127]
  exact rowFactored_eq_rowDirect codeAct he (by norm_num : (0 : ℝ) < 127) (EReal.coe_pos.2 hr0) (EReal.coe_ne_top _)
    (hws ▸ hsc.1) (hws ▸ hsc.2) (fun d => x (ix3 (i 0) (i 1) d)) (fun d => g (ix1 d)) _

end Cert.Spec

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KernelPayload.lean ====
/-
  The kernel body's one stored value, read entry by entry. The body works on a block of 2048 rows: per row the sum of
  squares (a lane sum with the axis kept), the inverse root-mean-square, the gain-weighted row `t = x · nw`, the row's
  largest `|t|` (a lane maximum from -∞), the int8 step `max (r · amax, ε) / 127`, the codes
  `round (clip (t · (r / step)))`, their product with the 512 × 512 ternary weight block, and the row's step times the
  weight scale applied to that product. Each stage is named and read at an index; entry (p, q) of the stored block is
  the factored arrangement of row p of the block against column q of the weight block.
-/
import proofs.«100277_j55027120996833_2_alg».proof.Proof.Gen.KernelIdeal.Skeleton
import proofs.«100277_j55027120996833_2_alg».proof.Proof.Spec
import proofs.«100277_j55027120996833_2_alg».proof.Proof.LibKeepdims
import proofs.«100277_j55027120996833_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx AbsmaxQuant Cert.Spec

/-! ## The stages of the body, named -/

variable (v0 : Vec Ideal S2048x512 .f32) (v10 : Vec Ideal S1x512 .f32) (v31 : Vec Ideal S512x512 .bf16) (v34 : Vec Ideal S1x1 .f32)

/-- Per row, the sum of the squares, as a column. -/
def ssq : FVec Ideal S2048x1 .f32 :=
  shapeCast S2048x1 (multiReduction .add [1] S2048
    (mulf (shapeCast S2048x512 v0 shapeCasts_S2048x512_S2048x512 : FVec Ideal S2048x512 .f32)
      (shapeCast S2048x512 v0 shapeCasts_S2048x512_S2048x512 : FVec Ideal S2048x512 .f32))
    0x00000000#32 reduces_S2048x512_S2048 (.inl rfl) rfl) shapeCasts_S2048_S2048x1

/-- Per row, the inverse root-mean-square, as a column. -/
def rms : FVec Ideal S2048x1 .f32 :=
  rsqrt (addf (divf (ssq v0) (broadcast S2048x1 (Scalar.ofBits .f32 0x44000000#32))) (broadcast S2048x1 (Scalar.ofBits .f32 0x322BCC77#32)))

/-- The gain-weighted block. -/
def tw : FVec Ideal S2048x512 .f32 :=
  mulf (shapeCast S2048x512 v0 shapeCasts_S2048x512_S2048x512 : FVec Ideal S2048x512 .f32)
    (broadcastTo S2048x512 (shapeCast S1x512 v10 shapeCasts_S1x512_S1x512 : FVec Ideal S1x512 .f32) broadcasts_S1x512_S2048x512)

/-- Per row, the largest magnitude of the gain-weighted row, as a column. -/
def rowmax : FVec Ideal S2048x1 .f32 :=
  shapeCast S2048x1 (multiReduction .maximumf [1] S2048 (absf (tw v0 v10)) 0xFF800000#32 reduces_S2048x512_S2048 (.inl rfl) rfl)
    shapeCasts_S2048_S2048x1

/-- Per row, the int8 step, as a column. -/
def step : FVec Ideal S2048x1 .f32 :=
  divf (maximumf (mulf (rms v0) (rowmax v0 v10)) (broadcast S2048x1 (Scalar.ofBits .f32 0x322BCC77#32)))
    (broadcast S2048x1 (Scalar.ofBits .f32 0x42FE0000#32))

/-- The block of activation codes. -/
def codes : FVec Ideal S2048x512 .bf16 :=
  truncf .bf16 (roundeven (minimumf (broadcast S2048x512 (Scalar.ofBits .f32 0x42FE0000#32))
    (maximumf (broadcast S2048x512 (Scalar.ofBits .f32 0xC3000000#32))
      (mulf (tw v0 v10) (broadcastTo S2048x512 (divf (rms v0) (step v0 v10)) broadcasts_S2048x1_S2048x512))))) bitsLt_bf16_f32

/-- The stored block. -/
def out : FVec Ideal S2048x512 .f32 :=
  mulf (matmul dot_S2048x512_S512x512_S2048x512_1_0_0_1_n_n none (codes v0 v10) (shapeCast S512x512 v31 shapeCasts_S512x512_S512x512 : FVec Ideal S512x512 .bf16)
      (constant S2048x512 .f32 0x00000000#32))
    (broadcastTo S2048x512 (mulf (step v0 v10) (broadcastTo S2048x1 (shapeCast S1x1 v34 shapeCasts_S1x1_S1x1 : FVec Ideal S1x1 .f32) broadcasts_S1x1_S2048x1))
      broadcasts_S2048x1_S2048x512)

/-- The body's payload is the last stage. -/
theorem pay_eq : k0_pay1 (F := Ideal) v0 v10 v31 v34 = out v0 v10 v31 v34 := rfl

/-! ## Each stage at an index -/

/-- Row p with lane k inserted is (p, k). -/
theorem lift_eq (p : Fin 2048) (k : Fin 512) : reduces_S2048x512_S2048.lift (ix1 p) k = ix2 p k :=
  funext fun a => Fin.ext (by match a with | ⟨0, _⟩ => rfl | ⟨1, _⟩ => rfl)

theorem ssq_apply (p : Fin 2048) (u : Fin 1) : ssq v0 (ix2 p u) = ∑ k : Fin 512, v0 (ix2 p k) * v0 (ix2 p k) := by
  unfold ssq
  simp only [shapeCast_self]
  refine (Keepdims.shapeCast_a_a1_apply _ shapeCasts_S2048_S2048x1 p u).trans ?_
  refine (Ideal.multiReduction_add_single (mulf v0 v0) _ reduces_S2048x512_S2048 _ _ (ix1 p)).trans ?_
  exact Finset.sum_congr rfl fun k _ => congrArg (fun i => v0 i * v0 i) (lift_eq p k)

theorem rms_apply (p : Fin 2048) (u : Fin 1) : rms v0 (ix2 p u) = invRms (fun d => v0 (ix2 p d)) := by
  unfold rms invRms
  show Ideal.rsqrt (Ideal.div (ssq v0 (ix2 p u)) (Ideal.ofBits .f32 0x44000000#32) + Ideal.ofBits .f32 0x322BCC77#32) = _
  rw [ssq_apply]

theorem tw_apply (p : Fin 2048) (k : Fin 512) : tw v0 v10 (ix2 p k) = v0 (ix2 p k) * v10 (ix2 (0 : Fin 1) k) := by
  unfold tw
  simp only [shapeCast_self]
  show v0 (ix2 p k) * broadcastTo S2048x512 v10 broadcasts_S1x512_S2048x512 (ix2 p k) = _
  rw [broadcastTo_1b_ab_apply]

theorem rowmax_apply (p : Fin 2048) (u : Fin 1) :
    rowmax v0 v10 (ix2 p u) = amax (fun d : Fin 512 => v0 (ix2 p d) * v10 (ix2 (0 : Fin 1) d)) := by
  unfold rowmax
  refine (Keepdims.shapeCast_a_a1_apply _ shapeCasts_S2048_S2048x1 p u).trans ?_
  refine (Ideal.multiReduction_maximumf_single (absf (tw v0 v10)) _ reduces_S2048x512_S2048 _ _ (ix1 p)).trans ?_
  unfold amax
  rw [← Cert.Consts.ofBits_neg_inf]
  refine Finset.fold_congr fun k _ => ?_
  show max (tw v0 v10 (reduces_S2048x512_S2048.lift (ix1 p) k)) (-(tw v0 v10 (reduces_S2048x512_S2048.lift (ix1 p) k))) = _
  have e : tw v0 v10 (reduces_S2048x512_S2048.lift (ix1 p) k) = v0 (ix2 p k) * v10 (ix2 (0 : Fin 1) k) :=
    (congrArg (tw v0 v10) (lift_eq p k)).trans (tw_apply v0 v10 p k)
  rw [e]

theorem step_apply (p : Fin 2048) (u : Fin 1) :
    step v0 v10 (ix2 p u)
      = Ideal.div (max (invRms (fun d => v0 (ix2 p d)) * amax (fun d : Fin 512 => v0 (ix2 p d) * v10 (ix2 (0 : Fin 1) d)))
          (Ideal.ofBits .f32 0x322BCC77#32)) (Ideal.ofBits .f32 0x42FE0000#32) := by
  unfold step
  show Ideal.div (max (rms v0 (ix2 p u) * rowmax v0 v10 (ix2 p u)) (Ideal.ofBits .f32 0x322BCC77#32)) (Ideal.ofBits .f32 0x42FE0000#32) = _
  rw [rms_apply, rowmax_apply]

theorem codes_apply (p : Fin 2048) (k : Fin 512) :
    codes v0 v10 (ix2 p k)
      = codeAct ((v0 (ix2 p k) * v10 (ix2 (0 : Fin 1) k)) * Ideal.div (invRms (fun d => v0 (ix2 p d)))
          (Ideal.div (max (invRms (fun d => v0 (ix2 p d)) * amax (fun d : Fin 512 => v0 (ix2 p d) * v10 (ix2 (0 : Fin 1) d)))
            (Ideal.ofBits .f32 0x322BCC77#32)) (Ideal.ofBits .f32 0x42FE0000#32))) := by
  unfold codes codeAct rnd
  show Ideal.liftRound Ideal.roundHalfEven (min (Ideal.ofBits .f32 0x42FE0000#32) (max (Ideal.ofBits .f32 0xC3000000#32)
    (tw v0 v10 (ix2 p k) * broadcastTo S2048x512 (divf (rms v0) (step v0 v10)) broadcasts_S2048x1_S2048x512 (ix2 p k)))) = _
  rw [Keepdims.broadcastTo_a1_ab_apply, tw_apply, divf_apply, rms_apply, step_apply]

/-- The dimension numbers of the body's product are those of a plain [2048, 512] × [512, 512] product. -/
theorem dot_plain : PlainDot.IsPlain dot_S2048x512_S512x512_S2048x512_1_0_0_1_n_n where
  rank := rfl
  size := rfl
  lhs0 := fun i q => by
    unfold DotDims.lhsIdx
    rw [dif_neg (show ¬(0 : Fin S2048x512.rank) ∈ dot_S2048x512_S512x512_S2048x512_1_0_0_1_n_n.lhsBatch by decide),
      dif_pos (show (0 : Fin S2048x512.rank) ∈ dot_S2048x512_S512x512_S2048x512_1_0_0_1_n_n.lhsNonContracting by decide)]
    rfl
  lhs1 := fun i q => dot_S2048x512_S512x512_S2048x512_1_0_0_1_n_n.lhsIdx_val_of_single rfl i q
  rhs0 := fun i q => dot_S2048x512_S512x512_S2048x512_1_0_0_1_n_n.rhsIdx_val_of_single rfl i q
  rhs1 := fun i q => by
    unfold DotDims.rhsIdx
    rw [dif_neg (show ¬(1 : Fin S512x512.rank) ∈ dot_S2048x512_S512x512_S2048x512_1_0_0_1_n_n.rhsBatch by decide),
      dif_pos (show (1 : Fin S512x512.rank) ∈ dot_S2048x512_S512x512_S2048x512_1_0_0_1_n_n.rhsNonContracting by decide)]
    rfl

/-- Entry (p, q) of the stored block: the factored arrangement of row p against column q of the weight block, with the
    weight scale the one entry of the last operand. -/
theorem out_apply (p : Fin 2048) (q : Fin 512) :
    out v0 v10 v31 v34 (ix2 p q)
      = rowFactored codeAct (Ideal.ofBits .f32 0x322BCC77#32) (Ideal.ofBits .f32 0x42FE0000#32)
          (invRms fun d => v0 (ix2 p d)) (v34 (ix2 (0 : Fin 1) (0 : Fin 1)))
          (fun d => v0 (ix2 p d)) (fun d => v10 (ix2 (0 : Fin 1) d)) (fun d => v31 (ix2 d q)) := by
  unfold out rowFactored
  simp only [shapeCast_self]
  show FloatOps.matmul dot_S2048x512_S512x512_S2048x512_1_0_0_1_n_n none (codes v0 v10) v31 (constant (F := Ideal) S2048x512 .f32 0x00000000#32) (ix2 p q)
      * broadcastTo S2048x512 (mulf (step v0 v10) (broadcastTo S2048x1 v34 broadcasts_S1x1_S2048x1)) broadcasts_S2048x1_S2048x512 (ix2 p q) = _
  rw [PlainDot.matmul_zero_apply _ dot_plain, Keepdims.broadcastTo_a1_ab_apply, mulf_apply, broadcastTo_1b_ab_apply, step_apply]
  simp only [codes_apply]

/-- The payload at (p, q). -/
theorem pay_apply (p : Fin 2048) (q : Fin 512) :
    k0_pay1 (F := Ideal) v0 v10 v31 v34 (ix2 p q)
      = rowFactored codeAct (Ideal.ofBits .f32 0x322BCC77#32) (Ideal.ofBits .f32 0x42FE0000#32)
          (invRms fun d => v0 (ix2 p d)) (v34 (ix2 (0 : Fin 1) (0 : Fin 1)))
          (fun d => v0 (ix2 p d)) (fun d => v10 (ix2 (0 : Fin 1) d)) (fun d => v31 (ix2 d q)) := by
  rw [pay_eq]; exact out_apply v0 v10 v31 v34 p q

end Cert.KernelIdeal.Payload

end
-- ==== Proof.KernelArrays.lean ====
/-
  What the kernel's region finds in its four input arrays, read at an index. The host lines before the region prepare
  them from the arguments: the activations with the two token axes merged (row `r` of [65536, 512] is token
  `(r / 4096, r % 4096)`), the ternary weight codes transposed to [features, outputs], the gain as one row, and the
  per-tensor weight scale as a 1 × 1 array.
-/
import proofs.«100277_j55027120996833_2_alg».proof.Proof.Gen.KernelIdeal.Frame
import proofs.«100277_j55027120996833_2_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx AbsmaxQuant Cert.Spec

/-! ## The host lines' terms -/

/-- The weight scale as the host computes it: mean magnitude floored by ε, a rank-0 array. -/
def hostScale (W : FVec Ideal S512x512 .f32) : FVec Ideal S_ .f32 :=
  maximumf (Host.divf (Host.reduceAdd (Host.absf W) (constant (F := Ideal) S_ .f32 0x00000000#32) reducesTo_S512x512_S_d0_1 h_S_)
    (constant (F := Ideal) S_ .f32 0x48800000#32)) (constant (F := Ideal) S_ .f32 0x322BCC77#32)

/-- The ternary weight codes as the host lays them out for the kernel: transposed to [features, outputs]. -/
def hostCodes (W : FVec Ideal S512x512 .f32) : FVec Ideal S512x512 .bf16 :=
  truncf .bf16 (transpose S512x512 [1, 0]
    (Host.roundeven (minimumf (broadcastInDim S512x512 ![] bcast_S_S512x512 (constant (F := Ideal) S_ .f32 0x3F800000#32))
      (maximumf (broadcastInDim S512x512 ![] bcast_S_S512x512 (constant (F := Ideal) S_ .f32 0xBF800000#32))
        (Host.divf W (broadcastInDim S512x512 ![] bcast_S_S512x512 (hostScale W))))))
    transposes_S512x512_S512x512_1_0) bitsLt_bf16_f32

/-- The host's scale is the specification's. -/
theorem hostScale_apply (W : FVec Ideal S512x512 .f32) (j : S_.Idx) : hostScale W j = wscale W := by
  have hsum : Host.reduceAdd (Host.absf W) (constant (F := Ideal) S_ .f32 0x00000000#32) reducesTo_S512x512_S_d0_1 h_S_ j
      = ∑ i : S512x512.Idx, max (W i) (-(W i)) := by
    simp only [Host.reduceAdd, Ideal.hostReduceAdd_def]
    refine (Ideal.hostReduceAdd_total reducesTo_S512x512_S_d0_1 (fun b => b.elim0) _ _ j).trans ?_
    show Ideal.ofBits .f32 0x00000000#32 + _ = _
    rw [Ideal.ofBits_zero_f32, zero_add]
    rfl
  unfold hostScale wscale
  show max (Ideal.div (Host.reduceAdd (Host.absf W) (constant (F := Ideal) S_ .f32 0x00000000#32) reducesTo_S512x512_S_d0_1 h_S_ j)
    (Ideal.ofBits .f32 0x48800000#32)) (Ideal.ofBits .f32 0x322BCC77#32) = _
  rw [hsum]

/-- Entry (d, o) of the transposed codes is the code of weight (o, d). -/
theorem hostCodes_apply (W : FVec Ideal S512x512 .f32) (d o : Fin 512) : hostCodes W (ix2 d o) = wq W o d := by
  unfold hostCodes
  show transpose S512x512 [1, 0]
    (Host.roundeven (minimumf (broadcastInDim S512x512 ![] bcast_S_S512x512 (constant (F := Ideal) S_ .f32 0x3F800000#32))
      (maximumf (broadcastInDim S512x512 ![] bcast_S_S512x512 (constant (F := Ideal) S_ .f32 0xBF800000#32))
        (Host.divf W (broadcastInDim S512x512 ![] bcast_S_S512x512 (hostScale W))))))
    transposes_S512x512_S512x512_1_0 (ix2 d o) = _
  refine (transpose_ix2_apply _ transposes_S512x512_S512x512_1_0 d o).trans ?_
  show Ideal.liftRound Ideal.roundHalfEven (min (Ideal.ofBits .f32 0x3F800000#32) (max (Ideal.ofBits .f32 0xBF800000#32)
    (Ideal.div (W (ix2 o d)) (broadcastInDim S512x512 ![] bcast_S_S512x512 (hostScale W) (ix2 o d))))) = _
  rw [broadcastInDim_apply _ bcast_S_S512x512 (hostScale W) (ix2 o d) ix0 (fun a => a.elim0), hostScale_apply]
  rfl

/-- The two token axes merged: row `r` of the [65536, 512] view is token `(r / 4096, r % 4096)`. -/
theorem rows_apply {α : Type} (Y : S16x4096x512.Idx → α) (r : Fin 65536) (d : Fin 512) :
    shapeCast S65536x512 Y shapeCasts_S16x4096x512_S65536x512 (ix2 r d)
      = Y (ix3 (⟨r.val / 4096, by have := r.isLt; omega⟩ : Fin 16) (⟨r.val % 4096, Nat.mod_lt _ (by norm_num)⟩ : Fin 4096) d) :=
  shapeCast_apply Y _ _ _ (by
    rw [Shape.rowMajor_val_three, Shape.rowMajor_val_two]
    show (r.val / 4096 * 4096 + r.val % 4096) * 512 + d.val = r.val * 512 + d.val
    rw [Nat.div_add_mod' r.val 4096])

/-! ## The arrays as the region finds them -/

variable (m : (ℓ : Loc nD τ sig) → Buf (Elt Ideal) ℓ)

theorem V_x (c : Dev nD) : (V m c main_v0 : S65536x512.Idx → EReal)
    = shapeCast S65536x512 (m ((c : Thread nD τ).loc main_arg0)) shapeCasts_S16x4096x512_S65536x512 := by
  dsimp only [V, V0]
  simp only [hostOps0, hostOps0_1, hostOps0_2, hostOps0_3, List.flatten_cons, List.flatten_nil, List.append_nil, List.cons_append,
    List.nil_append]
  after_results
  rfl

theorem V_w (c : Dev nD) : (V m c main_v10 : S512x512.Idx → EReal) = hostCodes (m ((c : Thread nD τ).loc main_arg1)) := by
  dsimp only [V, V0]
  simp only [hostOps0, hostOps0_1, hostOps0_2, hostOps0_3, List.flatten_cons, List.flatten_nil, List.append_nil, List.cons_append,
    List.nil_append]
  after_results
  rfl

theorem V_g (c : Dev nD) : (V m c main_v11 : S1x512.Idx → EReal)
    = shapeCast S1x512 (m ((c : Thread nD τ).loc main_arg2)) shapeCasts_S512_S1x512 := by
  dsimp only [V, V0]
  simp only [hostOps0, hostOps0_1, hostOps0_2, hostOps0_3, List.flatten_cons, List.flatten_nil, List.append_nil, List.cons_append,
    List.nil_append]
  after_results
  rfl

theorem V_c (c : Dev nD) : (V m c main_v12 : S1x1.Idx → EReal)
    = shapeCast S1x1 (hostScale (m ((c : Thread nD τ).loc main_arg1))) shapeCasts_S_S1x1 := by
  dsimp only [V, V0]
  simp only [hostOps0, hostOps0_1, hostOps0_2, hostOps0_3, List.flatten_cons, List.flatten_nil, List.append_nil, List.cons_append,
    List.nil_append]
  after_results
  rfl

/-! ## … read at an index -/

theorem V_x_apply (c : Dev nD) (r : Fin 65536) (d : Fin 512) :
    (V m c main_v0 : S65536x512.Idx → EReal) (ix2 r d)
      = (m ((c : Thread nD τ).loc main_arg0) : S16x4096x512.Idx → EReal)
          (ix3 (⟨r.val / 4096, by have := r.isLt; omega⟩ : Fin 16) (⟨r.val % 4096, Nat.mod_lt _ (by norm_num)⟩ : Fin 4096) d) := by
  rw [V_x]; exact rows_apply _ r d

theorem V_w_apply (c : Dev nD) (d o : Fin 512) :
    (V m c main_v10 : S512x512.Idx → EReal) (ix2 d o) = wq (m ((c : Thread nD τ).loc main_arg1)) o d := by
  rw [V_w]; exact hostCodes_apply _ d o

theorem V_g_apply (c : Dev nD) (u : Fin 1) (d : Fin 512) :
    (V m c main_v11 : S1x512.Idx → EReal) (ix2 u d) = (m ((c : Thread nD τ).loc main_arg2) : S512.Idx → EReal) (ix1 d) := by
  rw [V_g]; exact shapeCast_a_1a_apply _ shapeCasts_S512_S1x512 u d

theorem V_c_apply (c : Dev nD) (j : S1x1.Idx) :
    (V m c main_v12 : S1x1.Idx → EReal) j = wscale (m ((c : Thread nD τ).loc main_arg1)) := by
  rw [V_c]; unfold shapeCast; exact hostScale_apply _ _

end Cert.KernelIdeal.Arrays

end
-- ==== Proof.KernelValue.lean ====
/-
  The kernel program's result array. Grid point `t` works on rows `2048·t … 2048·t + 2047` of the merged [65536, 512]
  activations and writes back the same rows of the output; the three other operands are whole at every point. What a
  point writes back is a block of ONE function of the arguments — the specification `Spec.G` with its two token axes
  merged —, the 32 blocks tile the output, and the host line after the region splits the token axis again: the program
  ends with `Spec.G` of its arguments in its result.
-/
import proofs.«100277_j55027120996833_2_alg».proof.Proof.Gen.KernelIdeal.Frame
import proofs.«100277_j55027120996833_2_alg».proof.Proof.KernelPayload
import proofs.«100277_j55027120996833_2_alg».proof.Proof.KernelArrays
import Idealize.ShloMosaic.Lib.StableHlo.Run
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx AbsmaxQuant Cert.Spec Cert.KernelIdeal.Arrays
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the activations' and the output's block index is the point itself on the row
    axis, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 :=
  Nat.lt_of_lt_of_eq t.isLt (show cfg0.N = 32 from N_0)

/-- The specification with the two token axes merged: what the region's output array holds at the end. -/
abbrev Gflat (c : Dev nD) : S65536x512.Idx → EReal :=
  shapeCast S65536x512 (G (m ((c : Thread nD τ).loc main_arg0)) (m ((c : Thread nD τ).loc main_arg1)) (m ((c : Thread nD τ).loc main_arg2)))
    shapeCasts_S16x4096x512_S65536x512

/-! ## The input blocks at a point -/

/-- The activations' block at point `t`: rows `2048·t + p` of the merged array. -/
theorem iblk_x (c : Dev nD) (t : Fin cfg0.N) (p : Fin 2048) (d : Fin 512) (r : Fin 65536) (hr : r.val = t.val * 2048 + p.val) :
    (iblk m c 0 t : Vec Ideal S2048x512 .f32) (ix2 p d)
      = (m ((c : Thread nD τ).loc main_arg0) : S16x4096x512.Idx → EReal)
          (ix3 (⟨r.val / 4096, by have := r.isLt; omega⟩ : Fin 16) (⟨r.val % 4096, Nat.mod_lt _ (by norm_num)⟩ : Fin 4096) d) := by
  obtain ⟨e00, e01, -⟩ := idx_facts t
  unfold iblk
  rw [View.read_apply]
  show (V m c main_v0 : S65536x512.Idx → EReal) (((cfg0.win 0).blk t).view.emb (ix2 p d)) = _
  have he : ((cfg0.win 0).blk t).view.emb (ix2 p d) = (ix2 r d : S65536x512.Idx) := funext fun a => Fin.ext (by
    match a with
    | ⟨0, _⟩ => show win0_0.index t (0 : Fin 2) * 2048 + 1 * p.val = r.val; rw [e00, hr]; omega
    | ⟨1, _⟩ => show win0_0.index t (1 : Fin 2) * 512 + 1 * d.val = d.val; rw [e01]; omega)
  exact (congrArg (V m c main_v0 : S65536x512.Idx → EReal) he).trans (V_x_apply m c r d)

/-- The weight codes' block is the whole array at every point. -/
theorem iblk_w (c : Dev nD) (t : Fin cfg0.N) (d o : Fin 512) :
    (iblk m c 1 t : Vec Ideal S512x512 .bf16) (ix2 d o) = wq (m ((c : Thread nD τ).loc main_arg1)) o d := by
  obtain ⟨-, -, e10, e11, -⟩ := idx_facts t
  unfold iblk
  rw [View.read_apply]
  show (V m c main_v10 : S512x512.Idx → EReal) (((cfg0.win 1).blk t).view.emb (ix2 d o)) = _
  have he : ((cfg0.win 1).blk t).view.emb (ix2 d o) = (ix2 d o : S512x512.Idx) := funext fun a => Fin.ext (by
    match a with
    | ⟨0, _⟩ => show win0_1.index t (0 : Fin 2) * 512 + 1 * d.val = d.val; rw [e10]; omega
    | ⟨1, _⟩ => show win0_1.index t (1 : Fin 2) * 512 + 1 * o.val = o.val; rw [e11]; omega)
  exact (congrArg (V m c main_v10 : S512x512.Idx → EReal) he).trans (V_w_apply m c d o)

/-- The gain's block is the whole row at every point. -/
theorem iblk_g (c : Dev nD) (t : Fin cfg0.N) (d : Fin 512) :
    (iblk m c 2 t : Vec Ideal S1x512 .f32) (ix2 (0 : Fin 1) d) = (m ((c : Thread nD τ).loc main_arg2) : S512.Idx → EReal) (ix1 d) := by
  obtain ⟨-, -, -, -, e20, e21, -⟩ := idx_facts t
  unfold iblk
  rw [View.read_apply]
  show (V m c main_v11 : S1x512.Idx → EReal) (((cfg0.win 2).blk t).view.emb (ix2 (0 : Fin 1) d)) = _
  have he : ((cfg0.win 2).blk t).view.emb (ix2 (0 : Fin 1) d) = (ix2 (0 : Fin 1) d : S1x512.Idx) := funext fun a => Fin.ext (by
    match a with
    | ⟨0, _⟩ => show win0_2.index t (0 : Fin 2) * 1 + 1 * 0 = 0; rw [e20]
    | ⟨1, _⟩ => show win0_2.index t (1 : Fin 2) * 512 + 1 * d.val = d.val; rw [e21]; omega)
  exact (congrArg (V m c main_v11 : S1x512.Idx → EReal) he).trans (V_g_apply m c 0 d)

/-- The weight scale's block is its one entry at every point. -/
theorem iblk_c (c : Dev nD) (t : Fin cfg0.N) (j : S1x1.Idx) :
    (iblk m c 3 t : Vec Ideal S1x1 .f32) j = wscale (m ((c : Thread nD τ).loc main_arg1)) := by
  unfold iblk
  rw [View.read_apply]
  exact V_c_apply m c _

/-! ## What a point writes back -/

/-- What point `t` writes back is block `t` of the merged specification. -/
theorem flushed_eq (c : Dev nD) (t : Fin cfg0.N) :
    (dats m 0 c).flushed 4 t = ((cfg0.win 4).blk t).view.read (Elt Ideal) (Gflat m c) := by
  show (cfg0.win 4).cut (grid0.coords t) ((dats m 0 c).after 4 t) = _
  rw [after0_4]
  unfold out0_4
  rw [View.canon_unit_zero hz]
  simp only [View.ld_unit_zero (S := S2048x512) hz, View.ld_unit_zero (S := S1x512) hz, View.ld_unit_zero (S := S512x512) hz,
    View.ld_unit_zero (S := S1x1) hz]
  obtain ⟨-, -, -, -, -, -, -, -, e40, e41⟩ := idx_facts t
  have ht := point_lt t
  refine funext fun (j : S2048x512.Idx) => ?_
  obtain ⟨p, q, rfl⟩ : ∃ (p : Fin 2048) (q : Fin 512), j = ix2 p q := ⟨j 0, j 1, eq_ix2 j⟩
  show k0_pay1 (F := Ideal) (iblk m c 0 t) (iblk m c 2 t) (iblk m c 1 t) (iblk m c 3 t) (ix2 p q)
    = Gflat m c (((cfg0.win 4).blk t).view.emb (ix2 p q))
  have hp := p.isLt
  have he : ((cfg0.win 4).blk t).view.emb (ix2 p q) = (ix2 (⟨t.val * 2048 + p.val, by omega⟩ : Fin 65536) q : S65536x512.Idx) :=
    funext fun a => Fin.ext (by
      match a with
      | ⟨0, _⟩ => show win0_4.index t (0 : Fin 2) * 2048 + 1 * p.val = t.val * 2048 + p.val; rw [e40]; omega
      | ⟨1, _⟩ => show win0_4.index t (1 : Fin 2) * 512 + 1 * q.val = q.val; rw [e41]; omega)
  rw [Payload.pay_apply (iblk m c 0 t) (iblk m c 2 t) (iblk m c 1 t) (iblk m c 3 t) p q]
  refine Eq.trans ?_ (congrArg (Gflat m c) he).symm
  refine Eq.trans ?_ (rows_apply _ _ q).symm
  unfold G
  have hx : (fun d : Fin 512 => (iblk m c 0 t : Vec Ideal S2048x512 .f32) (ix2 p d))
      = fun d => (m ((c : Thread nD τ).loc main_arg0) : S16x4096x512.Idx → EReal)
          (ix3 (⟨(t.val * 2048 + p.val) / 4096, by omega⟩ : Fin 16) (⟨(t.val * 2048 + p.val) % 4096, Nat.mod_lt _ (by norm_num)⟩ : Fin 4096) d) :=
    funext fun d => iblk_x m c t p d ⟨t.val * 2048 + p.val, by omega⟩ rfl
  have hw : (fun d : Fin 512 => (iblk m c 1 t : Vec Ideal S512x512 .bf16) (ix2 d q))
      = fun d => wq (m ((c : Thread nD τ).loc main_arg1)) q d := funext fun d => iblk_w m c t d q
  have hg : (fun d : Fin 512 => (iblk m c 2 t : Vec Ideal S1x512 .f32) (ix2 (0 : Fin 1) d))
      = fun d => (m ((c : Thread nD τ).loc main_arg2) : S512.Idx → EReal) (ix1 d) := funext fun d => iblk_g m c t d
  rw [hx, hw, hg, iblk_c m c t]

/-! ## The output array after the run -/

/-- An index of the output is in point `t`'s block iff each coordinate is in the block's range on its axis. -/
theorem mem_blk (t : Fin cfg0.N) (i : S65536x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v13).slice (win0_4.rect t)).set ↔ _
  rw [View.set_slice_whole, Rect.mem_set_unit]
  exact Iff.rfl

/-- The 32 blocks tile the output: row `r` is in block `r / 2048`. -/
theorem cover (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  obtain ⟨t, htv⟩ : ∃ t : Fin cfg0.N, t.val = (i 0).val / 2048 :=
    ⟨⟨(i 0).val / 2048, by rw [show cfg0.N = 32 from N_0]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    rw [e40, htv]; omega
  | ⟨1, _⟩ =>
    show win0_4.index t (1 : Fin 2) * 512 ≤ (i 1).val ∧ (i 1).val < win0_4.index t (1 : Fin 2) * 512 + 512
    rw [e41]; omega

/-- The output array ends holding the merged specification. -/
theorem final (c : Dev nD) : (dats m 0 c).arrAt 4 cfg0.N = Gflat m c :=
  (dats m 0 c).arrAt_eq_of_cover 4 (Gflat m c) (fun t _ => flushed_eq m c t) cover

/-! ## The host line after the region, and the run -/

/-- The program's result: the host line after the region splits the token axis of the output array again. -/
theorem tail_eq (c : Dev nD) :
    Pipeline.afterTail₀ cfgs (dats m) 0 (V0 m) [hostOps1] c main_v14
      = G (m ((c : Thread nD τ).loc main_arg0)) (m ((c : Thread nD τ).loc main_arg1)) (m ((c : Thread nD τ).loc main_arg2)) := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v13)
      = Gflat m c :=
    (Pipeline.withArrays_arr spec0 launch0.win.arr_inj c _ _ 4).trans (final m c)
  show shapeCast S16x4096x512
      (Pipeline.withArrays (cfgs 0).spec c (V0 m c) (fun w => (dats m 0 c).arrAt w (cfgs 0).N) (Proc.devRef .tc main_v13))
      shapeCasts_S65536x512_S16x4096x512 = _
  rw [hw]
  exact shapeCast_shapeCast _ _ _

/-- The kernel program's run, read: every weakly fair execution terminates with the specification of the arguments in the
    result and the arguments unchanged. -/
theorem run : θ_run defs (onTc (τ := τ) (main (F := Ideal))) ⟨m, fun _ => 0, ρ⟩ fun r => ∀ c : Dev nD,
      r.2.mem ((c.tc : Thread nD τ).loc main_v14)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefIsSpec.lean ====
/-
  The reference program's result, read one operation at a time, is the direct arrangement `Spec.Gdirect` of the three
  arguments: the row's inverse root-mean-square, the normalised entry `(x · r) · nw`, the row's largest magnitude as a
  fold of `max` from -∞, the int8 step, the dequantised activation `code · step`; the weight scale and the dequantised
  weight `code · scale`; and the product over the 512 features.
-/
import proofs.«100277_j55027120996833_2_alg».proof.Proof.Gen.ReferenceIdeal.Read
import proofs.«100277_j55027120996833_2_alg».proof.Proof.Spec
import Idealize.ShloMosaic.PureOps.Reduce

noncomputable section

namespace Cert.RefSpec

open Cert.ReferenceIdeal Cert.ReferenceIdeal.Gen Cert.ReferenceIdeal.Read Idealize.ShloMosaic Idealize.ShloMosaic.ValueIdx AbsmaxQuant Cert.Spec

variable (X : S16x4096x512.Idx → EReal) (W : S512x512.Idx → EReal) (NW : S512.Idx → EReal)

/-- The last axis of a [16, 4096, 512] array reduces to [16, 4096]. -/
theorem hred : S16x4096x512.Reduces [2] S16x4096 := by decide

/-- Index (b, s) with coordinate k inserted on the last axis is (b, s, k). -/
theorem lift_eq (j : S16x4096.Idx) (k : Fin 512) : hred.lift j k = ix3 (j 0) (j 1) k :=
  funext fun a => Fin.ext (by match a with | ⟨0, _⟩ => rfl | ⟨1, _⟩ => rfl | ⟨2, _⟩ => rfl)

/-- The row's inverse root-mean-square, at the kept unit axis. -/
theorem ref_invRms (j : S16x4096x1.Idx) :
    val_main_v7 (F := Ideal) X j = invRms (fun d => X (ix3 (j 0) (j 1) d)) := by
  have hidx : ∀ k : Fin 512, idx_main_v1 (idx_main_v2 j) k = ix3 (j 0) (j 1) k := fun k =>
    funext fun a => by match a with | ⟨0, _⟩ => rfl | ⟨1, _⟩ => rfl | ⟨2, _⟩ => rfl
  rw [val_main_v7_apply, val_main_v6_apply, val_main_v4_apply, val_main_v2_apply, val_main_v1_apply, val_main_v3_apply,
    val_main_v5_apply]
  simp only [val_main_cst_apply, val_main_cst_0_apply, val_main_cst_1_apply, val_main_v0_apply, Ideal.hostUnary_rsqrt_def,
    Ideal.addf_def, Ideal.hostDivf_def, Ideal.mulf_def, Ideal.ofBits_def, Ideal.ofBits_zero_f32, zero_add, hidx]
  rfl

/-- The normalised entry: `(x · r) · nw`. -/
theorem ref_norm (i : S16x4096x512.Idx) :
    val_main_v12 (F := Ideal) X NW i = (X i * invRms (fun d => X (ix3 (i 0) (i 1) d))) * NW (ix1 (i 2)) := by
  have hidx : idx_main_v10 (idx_main_v11 i) = ix1 (i 2) :=
    funext fun a => by match a with | ⟨0, _⟩ => rfl
  rw [val_main_v12_apply, val_main_v9_apply, val_main_v8_apply, ref_invRms, val_main_v11_apply, val_main_v10_apply, hidx]
  rfl

/-- The row's largest magnitude: the fold of `max` from -∞ over the normalised row's magnitudes. -/
theorem ref_amax (j : S16x4096.Idx) :
    val_main_v14 (F := Ideal) X NW j
      = amax (fun d : Fin 512 => (X (ix3 (j 0) (j 1) d) * invRms (fun d => X (ix3 (j 0) (j 1) d))) * NW (ix1 d)) := by
  unfold val_main_v14
  rw [Host.reduce_eq_fold_single FloatOps.maximumf _ _ reducesTo_S16x4096x512_S16x4096_d2 hred h_S_ j]
  unfold amax
  rw [← Cert.Consts.ofBits_neg_inf]
  refine Finset.fold_congr fun k _ => ?_
  show max (val_main_v12 (F := Ideal) X NW (hred.lift j k)) (-(val_main_v12 (F := Ideal) X NW (hred.lift j k))) = _
  have e : val_main_v12 (F := Ideal) X NW (hred.lift j k)
      = (X (ix3 (j 0) (j 1) k) * invRms (fun d => X (ix3 (j 0) (j 1) d))) * NW (ix1 k) :=
    (congrArg (val_main_v12 (F := Ideal) X NW) (lift_eq j k)).trans (ref_norm X NW (ix3 (j 0) (j 1) k))
  rw [e]

/-- The row's int8 step. -/
theorem ref_step (j : S16x4096x1.Idx) :
    val_main_v19 (F := Ideal) X NW j
      = Ideal.div (max (amax (fun d : Fin 512 => (X (ix3 (j 0) (j 1) d) * invRms (fun d => X (ix3 (j 0) (j 1) d))) * NW (ix1 d)))
          (Ideal.ofBits .f32 0x322BCC77#32)) (Ideal.ofBits .f32 0x42FE0000#32) := by
  rw [val_main_v19_apply, val_main_v17_apply, val_main_v15_apply, ref_amax, val_main_v16_apply, val_main_v18_apply]
  rfl

/-- The dequantised activation: its code times the row's step. -/
theorem ref_act (i : S16x4096x512.Idx) :
    val_main_v25 (F := Ideal) X NW i
      = codeAct (Ideal.div ((X i * invRms (fun d => X (ix3 (i 0) (i 1) d))) * NW (ix1 (i 2)))
          (Ideal.div (max (amax (fun d : Fin 512 => (X (ix3 (i 0) (i 1) d) * invRms (fun d => X (ix3 (i 0) (i 1) d))) * NW (ix1 d)))
            (Ideal.ofBits .f32 0x322BCC77#32)) (Ideal.ofBits .f32 0x42FE0000#32)))
        * Ideal.div (max (amax (fun d : Fin 512 => (X (ix3 (i 0) (i 1) d) * invRms (fun d => X (ix3 (i 0) (i 1) d))) * NW (ix1 d)))
            (Ideal.ofBits .f32 0x322BCC77#32)) (Ideal.ofBits .f32 0x42FE0000#32) := by
  rw [val_main_v25_apply, val_main_v23_apply, val_main_v22_apply, val_main_call0_v4_apply, val_main_call0_v2_apply,
    val_main_call0_v1_apply, val_main_v21_apply, ref_norm, val_main_v20_apply, val_main_v24_apply, ref_step]
  rfl

/-- The per-tensor weight scale. -/
theorem ref_wscale (j : S_.Idx) : val_main_v29 (F := Ideal) W j = wscale W := by
  rw [val_main_v29_apply, val_main_v28_apply, val_main_v27_apply]
  simp only [val_main_cst_7_apply, val_main_cst_8_apply, val_main_cst_9_apply, val_main_v26_apply, Ideal.hostAbsf_def,
    Ideal.absf_def, Ideal.hostDivf_def, Ideal.maximumf_def, Ideal.ofBits_def, Ideal.ofBits_zero_f32, zero_add]
  rfl

/-- The dequantised weight: its ternary code times the scale. -/
theorem ref_weight (o k : Fin 512) :
    val_main_v35 (F := Ideal) W (ix2 o k) = wq W o k * wscale W := by
  rw [val_main_v35_apply, val_main_v33_apply, val_main_v32_apply, val_main_call2_v4_apply, val_main_call2_v2_apply,
    val_main_call2_v1_apply, val_main_v31_apply, val_main_v30_apply, ref_wscale, val_main_v34_apply, ref_wscale]
  rfl

/-- The reference's result is the direct arrangement of the three arguments. -/
theorem ref_eq : val_main_v36 (F := Ideal) X W NW = Gdirect X W NW := by
  funext i
  rw [val_main_v36_apply]
  unfold Gdirect rowDirect
  refine Finset.sum_congr rfl fun k _ => ?_
  have hl : lidx_main_v36 i k = ix3 (i 0) (i 1) k :=
    funext fun a => by match a with | ⟨0, _⟩ => rfl | ⟨1, _⟩ => rfl | ⟨2, _⟩ => rfl
  have hr : ridx_main_v36 i k = ix2 (i 2) k :=
    funext fun a => by match a with | ⟨0, _⟩ => rfl | ⟨1, _⟩ => rfl
  rw [hl, hr]
  refine (congrArg₂ (· * ·) (ref_act X NW (ix3 (i 0) (i 1) k)) (ref_weight W (i 2) k)).trans ?_
  rfl

end Cert.RefSpec

end
-- ==== Proof.Finite.lean ====
/-
  The precondition read back: an array every entry of which has magnitude below +∞ is an array of reals. The three
  `all (|·| < +∞)` tests of the precondition, conjoined, give real-valued witnesses of the three argument arrays.
-/
import proofs.«100277_j55027120996833_2_alg».proof.Pre_finite_inputs
import proofs.«100277_j55027120996833_2_alg».proof.Proof.Consts
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose magnitude compares below +∞ is a real. -/
theorem real_of_abs_lt (x : EReal) (h : Ideal.cmp .olt (max x (-x)) (Ideal.ofBits .f32 0x7F800000#32) = 1#1) :
    ∃ r : ℝ, x = (r : EReal) := by
  rw [Cert.Consts.ofBits_pos_inf] at h
  induction x using EReal.rec with
  | bot => simp [Ideal.cmp] at h
  | coe r => exact ⟨r, rfl⟩
  | top => simp [Ideal.cmp] at h

/-- An array all of whose magnitudes compare below +∞ is an array of reals. -/
theorem reals_of_all {s : Shape} (X : s.Idx → EReal)
    (h : ∀ i, Ideal.cmp .olt (max (X i) (-(X i))) (Ideal.ofBits .f32 0x7F800000#32) = 1#1) :
    ∃ x : s.Idx → ℝ, X = fun i => (x i : EReal) := by
  choose x hx using fun i => real_of_abs_lt (X i) (h i)
  exact ⟨x, funext hx⟩

variable [Cert.Pre_finite_inputs.Facts]

/-- The precondition holding of three arrays makes each an array of reals. -/
theorem reals_of_pre (X : FVec Ideal S16x4096x512 .f32) (W : FVec Ideal S512x512 .f32) (NW : FVec Ideal S512 .f32)
    (h : Cert.Pre_finite_inputs.fn (F := Ideal) X W NW = fun _ => 1#1) :
    (∃ x : S16x4096x512.Idx → ℝ, X = fun i => (x i : EReal)) ∧ (∃ w : S512x512.Idx → ℝ, W = fun i => (w i : EReal))
      ∧ (∃ g : S512.Idx → ℝ, NW = fun i => (g i : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨reals_of_all X fun i => Host.reduce_andi_all _ _ _ _ _ h0' i,
    reals_of_all W fun i => Host.reduce_andi_all _ _ _ _ _ h1 i,
    reals_of_all NW fun i => Host.reduce_andi_all _ _ _ _ _ h2 i⟩

end Cert.Finite

end
-- ==== Proof.lean ====
/-
  The certificate of a fused RMSNorm + int8 activation quantisation + ternary-weight product kernel against its jnp
  reference, over the extended reals.

  Both programs compute, for a token row `x` of 512 features, the inverse root-mean-square `r = rsqrt (mean x² + ε)`,
  the normalised row `x · r · nw`, its int8 codes at the per-row step `max (absmax, ε) / 127`, the ternary codes of the
  weights at the per-tensor scale `c = max (mean |W|, ε)`, and the product of the dequantised row with each dequantised
  weight row. The reference does it in that order, every product carrying the row's step and the weight scale. The
  kernel factors `r` out of the absmax (`max_d |x_d · r · nw_d| = r · max_d |x_d · nw_d|`, since `r > 0`), multiplies
  `x · nw` by the single quotient `r / step`, multiplies bare codes with bare ternary weights and applies
  `step · c` once after the sum. On finite inputs the two are one function of the arguments:

  * `Spec.G` (factored) is what the kernel program ends with in its result: the body's stored value read entry by entry
    (Proof/KernelPayload.lean), the arrays the region finds (Proof/KernelArrays.lean), the blocks tiling the output and the
    host line after the region (Proof/KernelValue.lean);
  * `Spec.Gdirect` is what the reference's run ends with (Proof/RefIsSpec.lean, over the generated run read one
    operation at a time);
  * the precondition makes the three arguments arrays of reals (Proof/Finite.lean), where each row's `r` is a positive
    real and each scale finite, and the law of Proof/LibAbsmaxQuant.lean joins the two arrangements (Proof/Spec.lean).

  The three frames are the generated frame runs (the reference's its generated run with the result dropped); the
  idealisation rewrote nothing, so `preserves` asks nothing.
-/
import proofs.«100277_j55027120996833_2_alg».proof.Defs
import proofs.«100277_j55027120996833_2_alg».proof.Proof.Gen.Kernel
import proofs.«100277_j55027120996833_2_alg».proof.Proof.Gen.Kernel.Skeleton
import proofs.«100277_j55027120996833_2_alg».proof.Proof.Gen.Kernel.Launch
import proofs.«100277_j55027120996833_2_alg».proof.Proof.Gen.Kernel.Points
import proofs.«100277_j55027120996833_2_alg».proof.Proof.Gen.Kernel.Frame
import proofs.«100277_j55027120996833_2_alg».proof.Proof.Gen.KernelIdeal
import proofs.«100277_j55027120996833_2_alg».proof.Proof.Gen.KernelIdeal.Skeleton
import proofs.«100277_j55027120996833_2_alg».proof.Proof.Gen.KernelIdeal.Launch
import proofs.«100277_j55027120996833_2_alg».proof.Proof.Gen.KernelIdeal.Points
import proofs.«100277_j55027120996833_2_alg».proof.Proof.Gen.KernelIdeal.Frame
import proofs.«100277_j55027120996833_2_alg».proof.Proof.Gen.ReferenceIdeal
import proofs.«100277_j55027120996833_2_alg».proof.Proof.Gen.Pre_finite_inputs
import proofs.«100277_j55027120996833_2_alg».proof.Proof.Gen.ReferenceIdeal.Run
import proofs.«100277_j55027120996833_2_alg».proof.Proof.Gen.ReferenceIdeal.Read
import proofs.«100277_j55027120996833_2_alg».proof.Proof.KernelValue
import proofs.«100277_j55027120996833_2_alg».proof.Proof.RefIsSpec
import proofs.«100277_j55027120996833_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments, the kernel program ends with the factored arrangement of its arguments in its
    result and the reference with the direct arrangement of the same arguments; the precondition makes the arguments
    arrays of reals, on which the two arrangements are one function. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.Read.val_main_v36_eq, Cert.RefSpec.ref_eq, (hagree c).1, (hagree c).2.1, (hagree c).2.2]
  obtain ⟨⟨x, hx⟩, ⟨w, hw⟩, ⟨g, hg⟩⟩ := Cert.Finite.reals_of_pre _ _ _ (hpre c)
  rw [hx, hw, hg]
  exact (Cert.Spec.G_eq_Gdirect x w g).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
